-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x384x512 : Shape := ⟨3, ![32, 384, 512]⟩
abbrev S32x512x4096 : Shape := ⟨3, ![32, 512, 4096]⟩
abbrev S_ : Shape := ⟨0, ![]⟩

class Facts : Prop where
  bcast_S_S32x384x512 : S_.BroadcastsInDim S32x384x512 (![] : Fin 0 → Fin S32x384x512.rank)
  reducesTo_S32x384x512_S_d0_1_2 : S32x384x512.ReducesTo [0, 1, 2] S_
  h_S_ : 0 < S_.numel
  bcast_S_S32x512x4096 : S_.BroadcastsInDim S32x512x4096 (![] : Fin 0 → Fin S32x512x4096.rank)
  reducesTo_S32x512x4096_S_d0_1_2 : S32x512x4096.ReducesTo [0, 1, 2] S_

variable [Facts]

def fn {F : FTy → Type} [FloatOps F] (main_arg0 : FVec F S32x384x512 .f32) (main_arg1 : FVec F S32x512x4096 .f32) : IVec S_ 1 :=
  let main_v0 : FVec F S32x384x512 .f32 := Host.absf main_arg0
  let main_cst : FVec F S_ .f32 := constant S_ .f32 0x7F800000#32
  let main_v1 : FVec F S32x384x512 .f32 := broadcastInDim S32x384x512 ![] bcast_S_S32x384x512 main_cst
  let main_v2 : IVec S32x384x512 1 := cmpf .olt main_v0 main_v1
  let main_c : IVec S_ 1 := constantI S_ 1 1#1
  let main_v3 : IVec S_ 1 := (fun x v => Host.reduce IntOp.andi x v reducesTo_S32x384x512_S_d0_1_2 h_S_) main_v2 main_c
  let main_v4 : FVec F S32x512x4096 .f32 := Host.absf main_arg1
  let main_cst_0 : FVec F S_ .f32 := constant S_ .f32 0x7F800000#32
  let main_v5 : FVec F S32x512x4096 .f32 := broadcastInDim S32x512x4096 ![] bcast_S_S32x512x4096 main_cst_0
  let main_v6 : IVec S32x512x4096 1 := cmpf .olt main_v4 main_v5
  let main_c_1 : IVec S_ 1 := constantI S_ 1 1#1
  let main_v7 : IVec S_ 1 := (fun x v => Host.reduce IntOp.andi x v reducesTo_S32x512x4096_S_d0_1_2 h_S_) main_v6 main_c_1
  let main_v8 : IVec S_ 1 := andi main_v3 main_v7
  main_v8
-- ==== Kernel.lean ====
abbrev S32x384x512 : Shape := ⟨3, ![32, 384, 512]⟩
abbrev S32x512x4096 : Shape := ⟨3, ![32, 512, 4096]⟩
abbrev S32x384x4096 : Shape := ⟨3, ![32, 384, 4096]⟩
abbrev S1x384x512 : Shape := ⟨3, ![1, 384, 512]⟩
abbrev S1x512x2048 : Shape := ⟨3, ![1, 512, 2048]⟩
abbrev S1x384x2048 : Shape := ⟨3, ![1, 384, 2048]⟩
abbrev S384x512 : Shape := ⟨2, ![384, 512]⟩
abbrev S512x2048 : Shape := ⟨2, ![512, 2048]⟩
abbrev S384x2048 : Shape := ⟨2, ![384, 2048]⟩

abbrev nBuf : Space → Nat
  | .hbm => 3
  | .vmem => 6
  | .smem => 0
  | _ => 0

abbrev bufTy : (tb : Table) → Fin (tcTables nBuf tb) → BufTy
  | .hbm, ⟨0, _⟩ => ⟨S32x384x512, .f32⟩
  | .hbm, ⟨1, _⟩ => ⟨S32x512x4096, .f32⟩
  | .hbm, ⟨2, _⟩ => ⟨S32x384x4096, .f32⟩
  | .local _ .vmem, ⟨0, _⟩ => ⟨S1x384x512, .f32⟩
  | .local _ .vmem, ⟨1, _⟩ => ⟨S1x384x512, .f32⟩
  | .local _ .vmem, ⟨2, _⟩ => ⟨S1x512x2048, .f32⟩
  | .local _ .vmem, ⟨3, _⟩ => ⟨S1x512x2048, .f32⟩
  | .local _ .vmem, ⟨4, _⟩ => ⟨S1x384x2048, .f32⟩
  | .local _ .vmem, ⟨5, _⟩ => ⟨S1x384x2048, .f32⟩
  | _, _ => ⟨S32x384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x384x512_S1x384x512_0_0_0 : ∀ a, (![0, 0, 0] : Fin 3 → Nat) a + S1x384x512.size a ≤ S1x384x512.size a
  h_S1x384x512 : 0 < S1x384x512.numel
  shapeCasts_S1x384x512_S384x512 : S1x384x512.ShapeCasts S384x512
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x384x2048_S1x384x2048_0_0_0 : ∀ a, (![0, 0, 0] : Fin 3 → Nat) a + S1x384x2048.size a ≤ S1x384x2048.size a
  h_S1x384x2048 : 0 < S1x384x2048.numel
  shapeCasts_S1x384x2048_S384x2048 : S1x384x2048.ShapeCasts S384x2048
  shapeCasts_S384x2048_S1x384x2048 : S384x2048.ShapeCasts S1x384x2048
  dot_S384x512_S512x2048_S384x2048_1_0_0_1_n_n_wf : DotDims.WF S384x512 S512x2048 S384x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x512.size a ≤ S32x384x512.size a
  hwx0_0 : ∀ i : grid0.Coords, EltTy.bits .f32 = 32 ∨ (Rect.block (s := S32x384x512) S1x384x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S32x512x4096.size a
  hwx0_1 : ∀ i : grid0.Coords, EltTy.bits .f32 = 32 ∨ (Rect.block (s := S32x512x4096) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384x2048.size a ≤ S32x384x4096.size a
  hwx0_2 : ∀ i : grid0.Coords, EltTy.bits .f32 = 32 ∨ (Rect.block (s := S32x384x4096) S1x384x2048.size (cc0_transform_2 i) (hinb0_2 i)).WholeWords (EltTy.packing .f32)

variable [Facts₀]

def dot_S384x512_S512x2048_S384x2048_1_0_0_1_n_n : DotDims S384x512 S512x2048 S384x2048 where
  lhsContracting := [1]
  rhsContracting := [0]
  lhsNonContracting := [0]
  rhsNonContracting := [1]
  lhsBatch := []
  rhsBatch := []
  wf := dot_S384x512_S512x2048_S384x2048_1_0_0_1_n_n_wf

abbrev win0_0 : Pipeline.Window sig grid0 :=
  Pipeline.Window.ofSpec (Memref.whole main_arg0) S1x384x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x384x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x384x512 : Shape := ⟨3, ![32, 384, 512]⟩
abbrev S32x512x4096 : Shape := ⟨3, ![32, 512, 4096]⟩
abbrev S32x384x4096 : Shape := ⟨3, ![32, 384, 4096]⟩

abbrev nBuf : Space → Nat
  | .hbm => 3
  | .vmem => 0
  | .smem => 0
  | _ => 0

abbrev bufTy : (tb : Table) → Fin (tcTables nBuf tb) → BufTy
  | .hbm, ⟨0, _⟩ => ⟨S32x384x512, .f32⟩
  | .hbm, ⟨1, _⟩ => ⟨S32x512x4096, .f32⟩
  | .hbm, ⟨2, _⟩ => ⟨S32x384x4096, .f32⟩
  | _, _ => ⟨S32x384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32x384x512_S32x512x4096_S32x384x4096_2_1_1_2_0_0_wf : DotDims.WF S32x384x512 S32x512x4096 S32x384x4096 [2] [1] [1] [2] [0] [0]

variable [Facts₀]

def dot_S32x384x512_S32x512x4096_S32x384x4096_2_1_1_2_0_0 : DotDims S32x384x512 S32x512x4096 S32x384x4096 where
  lhsContracting := [2]
  rhsContracting := [1]
  lhsNonContracting := [1]
  rhsNonContracting := [2]
  lhsBatch := [0]
  rhsBatch := [0]
  wf := dot_S32x384x512_S32x512x4096_S32x384x4096_2_1_1_2_0_0_wf

class Facts : Prop extends Facts₀ where

variable [Facts]
-- ==== Proof.BatchedProduct.lean ====
/-
  The function both programs compute. For a batch `b`, a row `d` and a column `c`,

      out[b, d, c] = Σ_{n < 512} x[b, d, n] · p[b, n, c]

  over the extended reals: each batch's 384 × 512 matrix times that batch's 512 × 4096 matrix. The sum is a
  finite sum in a commutative monoid, so it does not depend on the order or the grouping of its terms, and
  nothing below asks the entries to be finite.
-/
import Idealize.ShloMosaic.PureOps.Ideal
import Idealize.ShloMosaic.Lib.ValueIdx

noncomputable section

namespace Cert.BatchedProduct

open Idealize.ShloMosaic Idealize.ShloMosaic.ValueIdx

/-- Entry `(b, d, c)` of the batched product of `x : [32, 384, 512]` and `p : [32, 512, 4096]`: the sum over the
    contracted axis `n` of `x[b, d, n] · p[b, n, c]`. -/
def prod (x : (⟨3, ![32, 384, 512]⟩ : Shape).Idx → EReal) (p : (⟨3, ![32, 512, 4096]⟩ : Shape).Idx → EReal) :
    (⟨3, ![32, 384, 4096]⟩ : Shape).Idx → EReal :=
  fun i => ∑ n : Fin 512, x (ix3 (i 0) (i 1) n) * p (ix3 (i 0) n (i 2))

/-- The product at an index given by its three coordinates. -/
theorem prod_ix3 (x : (⟨3, ![32, 384, 512]⟩ : Shape).Idx → EReal) (p : (⟨3, ![32, 512, 4096]⟩ : Shape).Idx → EReal)
    (b : Fin 32) (d : Fin 384) (c : Fin 4096) :
    prod x p (ix3 b d c) = ∑ n : Fin 512, x (ix3 b d n) * p (ix3 b n c) := rfl

end Cert.BatchedProduct

end
-- ==== Proof.StoredValue.lean ====
/-
  What the kernel body stores, entry by entry. The body loads a `1 × 384 × 512` block `x0` and a `1 × 512 × 2048` block
  `x1`, drops the leading unit axis of each, narrows both to bf16 (the identity on extended reals), multiplies the
  `384 × 512` matrix by the `512 × 2048` matrix into a zero accumulator, and puts the leading unit axis back. So the
  stored entry `(0, d, q)` is `Σ_{n < 512} x0[0, d, n] · x1[0, n, q]`: zero plus the sum is the sum.
-/
import proofs.«111033_j51084341019265_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The body's stored value as one expression of its two loaded blocks. -/
theorem stored_eq (x0 : Vec Ideal S1x384x512 .f32) (x1 : Vec Ideal S1x512x2048 .f32) :
    k0_pay1 (F := Ideal) x0 x1
      = shapeCast S1x384x2048
          (matmul dot_S384x512_S512x2048_S384x2048_1_0_0_1_n_n none
            (truncf .bf16 (shapeCast S384x512 x0 shapeCasts_S1x384x512_S384x512) bitsLt_bf16_f32)
            (truncf .bf16 (shapeCast S512x2048 x1 shapeCasts_S1x512x2048_S512x2048) bitsLt_bf16_f32)
            (constant S384x2048 .f32 0x00000000#32))
          shapeCasts_S384x2048_S1x384x2048 := rfl

/-- The left factor's row is the output's row. -/
theorem left_row (j : S384x2048.Idx) (k : dot_S384x512_S512x2048_S384x2048_1_0_0_1_n_n.contr.Idx) :
    (dot_S384x512_S512x2048_S384x2048_1_0_0_1_n_n.lhsIdx j k 0).val = (j 0).val := by
  unfold DotDims.lhsIdx
  rw [dif_neg (show ¬(0 : Fin S384x512.rank) ∈ dot_S384x512_S512x2048_S384x2048_1_0_0_1_n_n.lhsBatch by decide), dif_pos (show (0 : Fin S384x512.rank) ∈ dot_S384x512_S512x2048_S384x2048_1_0_0_1_n_n.lhsNonContracting by decide)]
  rfl

/-- The left factor's column is the contraction index. -/
theorem left_col (j : S384x2048.Idx) (k : dot_S384x512_S512x2048_S384x2048_1_0_0_1_n_n.contr.Idx) :
    (dot_S384x512_S512x2048_S384x2048_1_0_0_1_n_n.lhsIdx j k 1).val = (k ⟨0, by decide⟩).val :=
  dot_S384x512_S512x2048_S384x2048_1_0_0_1_n_n.lhsIdx_val_of_single rfl j k

/-- The right factor's row is the contraction index. -/
theorem right_row (j : S384x2048.Idx) (k : dot_S384x512_S512x2048_S384x2048_1_0_0_1_n_n.contr.Idx) :
    (dot_S384x512_S512x2048_S384x2048_1_0_0_1_n_n.rhsIdx j k 0).val = (k ⟨0, by decide⟩).val :=
  dot_S384x512_S512x2048_S384x2048_1_0_0_1_n_n.rhsIdx_val_of_single rfl j k

/-- The right factor's column is the output's column. -/
theorem right_col (j : S384x2048.Idx) (k : dot_S384x512_S512x2048_S384x2048_1_0_0_1_n_n.contr.Idx) :
    (dot_S384x512_S512x2048_S384x2048_1_0_0_1_n_n.rhsIdx j k 1).val = (j 1).val := by
  unfold DotDims.rhsIdx
  rw [dif_neg (show ¬(1 : Fin S512x2048.rank) ∈ dot_S384x512_S512x2048_S384x2048_1_0_0_1_n_n.rhsBatch by decide), dif_pos (show (1 : Fin S512x2048.rank) ∈ dot_S384x512_S512x2048_S384x2048_1_0_0_1_n_n.rhsNonContracting by decide)]
  rfl

/-- The stored entry `(u, d, q)` is the sum over `n` of `x0[0, d, n] · x1[0, n, q]`. -/
theorem stored_apply (x0 : Vec Ideal S1x384x512 .f32) (x1 : Vec Ideal S1x512x2048 .f32) (u : Fin 1) (d : Fin 384) (q : Fin 2048) :
    k0_pay1 (F := Ideal) x0 x1 (ix3 u d q) = ∑ n : Fin 512, x0 (ix3 (0 : Fin 1) d n) * x1 (ix3 (0 : Fin 1) n q) := by
  rw [stored_eq, shapeCast_ab_1ab_apply]
  refine (Ideal.matmul_constant_zero_apply dot_S384x512_S512x2048_S384x2048_1_0_0_1_n_n none _ _ (ix2 d q)).trans ?_
  rw [← Equiv.sum_comp (contrEquiv1 dot_S384x512_S512x2048_S384x2048_1_0_0_1_n_n 512 rfl rfl).symm]
  refine Finset.sum_congr rfl fun n _ => ?_
  have hk := contrEquiv1_symm_val dot_S384x512_S512x2048_S384x2048_1_0_0_1_n_n 512 rfl rfl n
  have el : dot_S384x512_S512x2048_S384x2048_1_0_0_1_n_n.lhsIdx (ix2 d q) ((contrEquiv1 dot_S384x512_S512x2048_S384x2048_1_0_0_1_n_n 512 rfl rfl).symm n) = ix2 d n :=
    funext fun a => Fin.ext (by
      match a with
      | ⟨0, _⟩ => exact left_row _ _
      | ⟨1, _⟩ => exact (left_col _ _).trans hk)
  have er : dot_S384x512_S512x2048_S384x2048_1_0_0_1_n_n.rhsIdx (ix2 d q) ((contrEquiv1 dot_S384x512_S512x2048_S384x2048_1_0_0_1_n_n 512 rfl rfl).symm n) = ix2 n q :=
    funext fun a => Fin.ext (by
      match a with
      | ⟨0, _⟩ => exact (right_row _ _).trans hk
      | ⟨1, _⟩ => exact right_col _ _)
  rw [el, er]
  exact congrArg₂ (· * ·)
    ((truncf_apply (ψ := .bf16) (shapeCast S384x512 x0 shapeCasts_S1x384x512_S384x512) bitsLt_bf16_f32 (ix2 d n)).trans
      (shapeCast_1ab_ab_apply x0 shapeCasts_S1x384x512_S384x512 d n))
    ((truncf_apply (ψ := .bf16) (shapeCast S512x2048 x1 shapeCasts_S1x512x2048_S512x2048) bitsLt_bf16_f32 (ix2 n q)).trans
      (shapeCast_1ab_ab_apply x1 shapeCasts_S1x512x2048_S512x2048 n q))

end Cert.KernelIdeal.Body

end
-- ==== Proof.WholeArray.lean ====
/-
  From blocks to the whole array. The grid has 32 × 2 points. At point `(b, h)` the kernel reads batch `b` of the
  first argument whole (a `1 × 384 × 512` block), columns `2048·h … 2048·h + 2047` of batch `b` of the second argument
  (a `1 × 512 × 2048` block), and writes back the block of the result at batch `b` and the same columns. Entry
  `(0, d, q)` of what it writes is `Σ_n x[b, d, n] · p[b, n, 2048·h + q]` — entry `(b, d, 2048·h + q)` of the batched
  product, so each written block is that block of ONE whole-array function. The 64 blocks cover the result array
  (an index `(b, d, c)` lies in the block of the point `(b, c / 2048)`), so after the run the array is the batched
  product of the two argument arrays.
-/
import proofs.«111033_j51084341019265_2_alg».proof.Proof.Gen.KernelIdeal.Value
import proofs.«111033_j51084341019265_2_alg».proof.Proof.StoredValue
import proofs.«111033_j51084341019265_2_alg».proof.Proof.BatchedProduct

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every access of the body starts at the origin of its block. -/
theorem origin : (![0, 0, 0] : Fin 3 → Nat) = fun _ => 0 := funext fun a => by fin_cases a <;> rfl

/-- One stored entry against one entry of the product: if row `d` of the left block is row `(b, r)` of `X` and column
    `q` of the right block is column `(b, s)` of `P`, the stored entry `(u, d, q)` is the product's entry `(b, r, s)`. -/
theorem entry_eq (X : (⟨3, ![32, 384, 512]⟩ : Shape).Idx → EReal) (P : (⟨3, ![32, 512, 4096]⟩ : Shape).Idx → EReal)
    (x0 : Vec Ideal S1x384x512 .f32) (x1 : Vec Ideal S1x512x2048 .f32)
    (u : Fin 1) (d : Fin 384) (q : Fin 2048) (b : Fin 32) (r : Fin 384) (s : Fin 4096)
    (h0 : ∀ n : Fin 512, x0 (ix3 (0 : Fin 1) d n) = X (ix3 b r n))
    (h1 : ∀ n : Fin 512, x1 (ix3 (0 : Fin 1) n q) = P (ix3 b n s)) :
    k0_pay1 (F := Ideal) x0 x1 (ix3 u d q) = Cert.BatchedProduct.prod X P (ix3 b r s) := by
  rw [Cert.KernelIdeal.Body.stored_apply, Cert.BatchedProduct.prod_ix3]
  exact Finset.sum_congr rfl fun n _ => congrArg₂ (· * ·) (h0 n) (h1 n)

/-- The printed index maps, decided over the 64 grid points: the first argument's block follows the result's batch
    and is otherwise the whole slice; the second argument's block follows the result's batch and column block and
    takes all 512 rows; the result's block index stays within 32 batches and 2 column blocks. -/
theorem index_facts : ∀ t : Fin cfg0.N,
    win0_0.index t (0 : Fin 3) = win0_2.index t (0 : Fin 3)
    ∧ win0_0.index t (1 : Fin 3) = 0
    ∧ win0_0.index t (2 : Fin 3) = 0
    ∧ win0_1.index t (0 : Fin 3) = win0_2.index t (0 : Fin 3)
    ∧ win0_1.index t (1 : Fin 3) = 0
    ∧ win0_1.index t (2 : Fin 3) = win0_2.index t (2 : Fin 3)
    ∧ win0_2.index t (1 : Fin 3) = 0
    ∧ win0_2.index t (0 : Fin 3) ≤ 31
    ∧ win0_2.index t (2 : Fin 3) ≤ 1 :=
  (by decide +kernel : ∀ t : Fin grid0.N, _)

/-- Every batch and column block is some grid point's. -/
theorem index_onto : ∀ (b : Fin 32) (h : Fin 2), ∃ t : Fin cfg0.N, win0_2.index t = ![b.val, 0, h.val] :=
  (by decide +kernel : ∀ (b : Fin 32) (h : Fin 2), ∃ t : Fin grid0.N, win0_2.index t = ![b.val, 0, h.val])

/-- What point `t` writes back is block `t` of the batched product of the argument arrays. -/
theorem flushed_eq (c : Dev nD) (t : Fin cfg0.N) :
    (dats m 0 c).flushed 2 t
      = ((cfg0.win 2).blk t).view.read (Elt Ideal) (Cert.BatchedProduct.prod (V m c main_arg0) (V m c main_arg1)) := by
  rw [flushed2]
  unfold out0_2
  rw [View.canon_unit_zero origin]
  simp only [View.ld_unit_zero (S := S1x384x512) origin, View.ld_unit_zero (S := S1x512x2048) origin]
  obtain ⟨e0, e1, e2, e3, e4, e5, e6, e7, e8⟩ := index_facts t
  refine funext fun (j : S1x384x2048.Idx) => ?_
  obtain ⟨u, d, q, rfl⟩ : ∃ (u : Fin 1) (d : Fin 384) (q : Fin 2048), j = ix3 u d q := ⟨j 0, j 1, j 2, eq_ix3 j⟩
  show k0_pay1 (F := Ideal) (iblk m c 0 t) (iblk m c 1 t) (ix3 u d q)
    = Cert.BatchedProduct.prod (V m c main_arg0) (V m c main_arg1) (((cfg0.win 2).blk t).view.emb (ix3 u d q))
  have hu : u.val = 0 := by have := u.isLt; omega
  refine (entry_eq (V m c main_arg0) (V m c main_arg1) (iblk m c 0 t) (iblk m c 1 t) u d q
      (((cfg0.win 2).blk t).view.emb (ix3 u d q) 0) (((cfg0.win 2).blk t).view.emb (ix3 u d q) 1)
      (((cfg0.win 2).blk t).view.emb (ix3 u d q) 2) (fun n => ?_) (fun n => ?_)).trans
    (congrArg (Cert.BatchedProduct.prod (V m c main_arg0) (V m c main_arg1)) (eq_ix3 _).symm)
  · show V m c main_arg0 (((cfg0.win 0).blk t).view.emb (ix3 (0 : Fin 1) d n)) = V m c main_arg0 _
    refine congrArg (V m c main_arg0) (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 384 + 1 * d.val = win0_2.index t (1 : Fin 3) * 384 + 1 * d.val; omega
    | ⟨2, _⟩ => show win0_0.index t (2 : Fin 3) * 512 + 1 * n.val = n.val; omega
  · show V m c main_arg1 (((cfg0.win 1).blk t).view.emb (ix3 (0 : Fin 1) n q)) = V m c main_arg1 _
    refine congrArg (V m c main_arg1) (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 512 + 1 * n.val = n.val; omega
    | ⟨2, _⟩ => show win0_1.index t (2 : Fin 3) * 2048 + 1 * q.val = win0_2.index t (2 : Fin 3) * 2048 + 1 * q.val; omega

/-- An index of the result array is in point `t`'s block iff each coordinate is in the block's range on its axis. -/
theorem mem_block (t : Fin cfg0.N) (i : S32x384x4096.Idx) :
    i ∈ ((cfg0.win 2).blk t).view.set ↔ ∀ a : Fin 3, win0_2.index t a * S1x384x2048.size a ≤ (i a).val
      ∧ (i a).val < win0_2.index t a * S1x384x2048.size a + S1x384x2048.size a := by
  show i ∈ ((View.whole main_v0).slice (win0_2.rect t)).set ↔ _
  rw [View.set_slice_whole, Rect.mem_set_unit]
  exact Iff.rfl

/-- Every index `(b, d, c)` of the result array lies in the block of the point with batch `b` and column block
    `c / 2048`, and every point writes its block back. -/
theorem covered (i : S32x384x4096.Idx) :
    ∃ t : Fin cfg0.N, (cfg0.win 2).flush t = true ∧ i ∈ ((cfg0.win 2).blk t).view.set := by
  have hi0 : (i 0).val < 32 := (i 0).isLt
  have hi1 : (i 1).val < 384 := (i 1).isLt
  have hi2 : (i 2).val < 4096 := (i 2).isLt
  obtain ⟨t, ht⟩ := index_onto ⟨(i 0).val, hi0⟩ ⟨(i 2).val / 2048, by omega⟩
  have q0 : win0_2.index t (0 : Fin 3) = (i 0).val := congrFun ht 0
  have q1 : win0_2.index t (1 : Fin 3) = 0 := congrFun ht 1
  have q2 : win0_2.index t (2 : Fin 3) = (i 2).val / 2048 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 384 ≤ (i 1).val ∧ (i 1).val < win0_2.index t (1 : Fin 3) * 384 + 384; omega
  | ⟨2, _⟩ => show win0_2.index t (2 : Fin 3) * 2048 ≤ (i 2).val ∧ (i 2).val < win0_2.index t (2 : Fin 3) * 2048 + 2048; omega

/-- The result array after the run is the batched product of the argument arrays. -/
theorem final (c : Dev nD) :
    (dats m 0 c).arrAt 2 cfg0.N
      = Cert.BatchedProduct.prod (m ((c : Thread nD τ).loc main_arg0)) (m ((c : Thread nD τ).loc main_arg1)) :=
  (dats m 0 c).arrAt_eq_of_cover 2 (Cert.BatchedProduct.prod (V m c main_arg0) (V m c main_arg1))
    (fun t _ => flushed_eq m c t) covered

/-- Every weakly fair execution of the kernel terminates with the result array at the batched product of the
    argument arrays, and the arguments unchanged. -/
theorem run : θ_run defs (onTc (τ := τ) (main (F := Ideal))) ⟨m, fun _ => 0, ρ⟩ fun r => ∀ c : Dev nD,
      r.2.mem ((c : Thread nD τ).loc main_v0)
        = Cert.BatchedProduct.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.ReferenceValue.lean ====
/-
  The reference's result is the batched product. Its one operation contracts axis 2 of the first argument with
  axis 1 of the second, batching over axis 0 of both: entry `(b, d, c)` is the sum over `n` of the first argument at
  `(b, d, n)` times the second at `(b, n, c)` — the specification's sum, term by term.
-/
import proofs.«111033_j51084341019265_2_alg».proof.Proof.Gen.ReferenceIdeal.Read
import proofs.«111033_j51084341019265_2_alg».proof.Proof.BatchedProduct

noncomputable section

namespace Cert.ReferenceIdeal.RefValue

open Cert.ReferenceIdeal Cert.ReferenceIdeal.Gen Cert.ReferenceIdeal.Read Idealize.ShloMosaic Idealize.ShloMosaic.ValueIdx

/-- The left operand's index at output index `i` and contraction index `k` is `(i 0, i 1, k)`. -/
theorem left_index (i : S32x384x4096.Idx) (k : Fin 512) : lidx_main_v0 i k = ix3 (i 0) (i 1) k :=
  funext fun a => by match a with | ⟨0, _⟩ => rfl | ⟨1, _⟩ => rfl | ⟨2, _⟩ => rfl

/-- The right operand's index at output index `i` and contraction index `k` is `(i 0, k, i 2)`. -/
theorem right_index (i : S32x384x4096.Idx) (k : Fin 512) : ridx_main_v0 i k = ix3 (i 0) k (i 2) :=
  funext fun a => by match a with | ⟨0, _⟩ => rfl | ⟨1, _⟩ => rfl | ⟨2, _⟩ => rfl

/-- The reference's result, as a function of its two arguments, is the batched product. -/
theorem result_eq (x0 : (⟨S32x384x512, .f32⟩ : BufTy).Contents (Elt Ideal)) (x1 : (⟨S32x512x4096, .f32⟩ : BufTy).Contents (Elt Ideal)) :
    val_main_v0 (F := Ideal) x0 x1 = Cert.BatchedProduct.prod x0 x1 := by
  funext i
  rw [val_main_v0_apply]
  unfold Cert.BatchedProduct.prod
  exact Finset.sum_congr rfl fun k _ =>
    congrArg₂ (· * ·) (congrArg x0 (left_index i k)) (congrArg x1 (right_index i k))

end Cert.ReferenceIdeal.RefValue

end
-- ==== Proof.lean ====
/-
  The kernel computes, for each of 32 batches, the product of a 384 × 512 matrix with a 512 × 4096 matrix, one
  1 × 384 × 2048 block of the result per grid point, each block by one matrix product of bf16-narrowed operands into a
  zero accumulator. The reference is the same batched product as one contraction. Over the extended reals narrowing
  is the identity and zero plus a sum is the sum, so entry `(b, d, c)` of both results is
  `Σ_{n < 512} x[b, d, n] · p[b, n, c]` (`Cert.BatchedProduct.prod`); a finite sum in a commutative monoid does not
  depend on the order of its terms, and no step uses that the inputs are finite.

  The kernel's side: what a grid point stores (Proof/StoredValue.lean), and that the 64 stored blocks are the blocks of
  the one whole-array product and cover the result (Proof/WholeArray.lean). The reference's side: its contraction read
  at an index is the same sum (Proof/ReferenceValue.lean). The three frames are the generated ones; the idealization
  rewrote no operation, so the preservation claim is `True`.
-/
import proofs.«111033_j51084341019265_2_alg».proof.Defs
import proofs.«111033_j51084341019265_2_alg».proof.Proof.Gen.Kernel
import proofs.«111033_j51084341019265_2_alg».proof.Proof.Gen.Kernel.Skeleton
import proofs.«111033_j51084341019265_2_alg».proof.Proof.Gen.Kernel.Launch
import proofs.«111033_j51084341019265_2_alg».proof.Proof.Gen.Kernel.Points
import proofs.«111033_j51084341019265_2_alg».proof.Proof.Gen.Kernel.Frame
import proofs.«111033_j51084341019265_2_alg».proof.Proof.Gen.KernelIdeal
import proofs.«111033_j51084341019265_2_alg».proof.Proof.Gen.KernelIdeal.Skeleton
import proofs.«111033_j51084341019265_2_alg».proof.Proof.Gen.KernelIdeal.Launch
import proofs.«111033_j51084341019265_2_alg».proof.Proof.Gen.KernelIdeal.Points
import proofs.«111033_j51084341019265_2_alg».proof.Proof.Gen.KernelIdeal.Frame
import proofs.«111033_j51084341019265_2_alg».proof.Proof.Gen.KernelIdeal.Value
import proofs.«111033_j51084341019265_2_alg».proof.Proof.Gen.ReferenceIdeal
import proofs.«111033_j51084341019265_2_alg».proof.Proof.Gen.ReferenceIdeal.Run
import proofs.«111033_j51084341019265_2_alg».proof.Proof.Gen.ReferenceIdeal.Read
import proofs.«111033_j51084341019265_2_alg».proof.Proof.Gen.Pre_finite_inputs
import proofs.«111033_j51084341019265_2_alg».proof.Proof.BatchedProduct
import proofs.«111033_j51084341019265_2_alg».proof.Proof.StoredValue
import proofs.«111033_j51084341019265_2_alg».proof.Proof.WholeArray
import proofs.«111033_j51084341019265_2_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals, from memories agreeing on the two arguments, both programs end with the result array
    at the batched product of the arguments: the kernel block by block, the reference by its one contraction. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
